-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel

variable [Facts]

def fn {F : FTy → Type} [FloatOps F] (main_arg0 : FVec F S8x128x128x128 .f32) (main_arg1 : FVec F S8x128x128x128 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S8x128x128x128 .f32 := Host.absf main_arg1
  let main_cst_0 : FVec F S_ .f32 := constant S_ .f32 0x7F800000#32
  let main_v5 : FVec F S8x128x128x128 .f32 := broadcastInDim S8x128x128x128 ![] bcast_S_S8x128x128x128 main_cst_0
  let main_v6 : IVec S8x128x128x128 1 := cmpf .olt main_v4 main_v5
  let main_c_1 : IVec S_ 1 := constantI S_ 1 1#1
  let main_v7 : IVec S_ 1 := (fun x v => Host.reduce IntOp.andi x v reducesTo_S8x128x128x128_S_d0_1_2_3 h_S_) main_v6 main_c_1
  let main_v8 : IVec S_ 1 := andi main_v3 main_v7
  main_v8
-- ==== Kernel.lean ====
abbrev S8x128x128x128 : Shape := ⟨4, ![8, 128, 128, 128]⟩
abbrev S8x9x128x128 : Shape := ⟨4, ![8, 9, 128, 128]⟩
abbrev S1x128x128x128 : Shape := ⟨4, ![1, 128, 128, 128]⟩
abbrev S1x9x128x128 : Shape := ⟨4, ![1, 9, 128, 128]⟩
abbrev S128x128x128 : Shape := ⟨3, ![128, 128, 128]⟩
abbrev S128x1x128 : Shape := ⟨3, ![128, 1, 128]⟩
abbrev S128x130x128 : Shape := ⟨3, ![128, 130, 128]⟩
abbrev S128x130x1 : Shape := ⟨3, ![128, 130, 1]⟩
abbrev S128x130x130 : Shape := ⟨3, ![128, 130, 130]⟩
abbrev S128x128 : Shape := ⟨2, ![128, 128]⟩
abbrev S1x128x128 : Shape := ⟨3, ![1, 128, 128]⟩
abbrev S9x128x128 : Shape := ⟨3, ![9, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S8x9x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S1x128x128x128, .f32⟩
  | .local _ .vmem, ⟨3, _⟩ => ⟨S1x128x128x128, .f32⟩
  | .local _ .vmem, ⟨4, _⟩ => ⟨S1x9x128x128, .f32⟩
  | .local _ .vmem, ⟨5, _⟩ => ⟨S1x9x128x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  concatenates_S128x1x128_S128x128x128_S128x1x128_S128x130x128_d1 : Shape.Concatenates [S128x1x128, S128x128x128, S128x1x128] S128x130x128 1
  concatenates_S128x130x1_S128x130x128_S128x130x1_S128x130x130_d2 : Shape.Concatenates [S128x130x1, S128x130x128, S128x130x1] S128x130x130 2
  slices_S128x130x130_o0_0_0_S128x128x128 : S128x130x130.Slices ![0, 0, 0] S128x128x128
  reduces_S128x128x128_S128x128 : S128x128x128.Reduces [0] S128x128
  slices_S128x130x130_o0_0_1_S128x128x128 : S128x130x130.Slices ![0, 0, 1] S128x128x128
  slices_S128x130x130_o0_0_2_S128x128x128 : S128x130x130.Slices ![0, 0, 2] S128x128x128
  slices_S128x130x130_o0_1_0_S128x128x128 : S128x130x130.Slices ![0, 1, 0] S128x128x128
  slices_S128x130x130_o0_1_1_S128x128x128 : S128x130x130.Slices ![0, 1, 1] S128x128x128
  slices_S128x130x130_o0_1_2_S128x128x128 : S128x130x130.Slices ![0, 1, 2] S128x128x128
  slices_S128x130x130_o0_2_0_S128x128x128 : S128x130x130.Slices ![0, 2, 0] S128x128x128
  slices_S128x130x130_o0_2_1_S128x128x128 : S128x130x130.Slices ![0, 2, 1] S128x128x128
  slices_S128x130x130_o0_2_2_S128x128x128 : S128x130x130.Slices ![0, 2, 2] S128x128x128
  shapeCasts_S128x128_S1x128x128 : S128x128.ShapeCasts S1x128x128
  concatenates_S1x128x128_S1x128x128_S1x128x128_S1x128x128_S1x128x128_S1x128x128_S1x128x128_S1x128x128_S1x128x128_S9x128x128_d0 : Shape.Concatenates [S1x128x128, S1x128x128, S1x128x128, S1x128x128, S1x128x128, S1x128x128, S1x128x128, S1x128x128, S1x128x128] S9x128x128 0
  inb_S1x9x128x128_S1x9x128x128_0_0_0_0 : ∀ a, (![0, 0, 0, 0] : Fin 4 → Nat) a + S1x9x128x128.size a ≤ S1x9x128x128.size a
  h_S1x9x128x128 : 0 < S1x9x128x128.numel
  shapeCasts_S1x9x128x128_S9x128x128 : S1x9x128x128.ShapeCasts S9x128x128
  shapeCasts_S9x128x128_S1x9x128x128 : S9x128x128.ShapeCasts S1x9x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S8x128x128x128.size a
  hwx0_0 : ∀ i : grid0.Coords, EltTy.bits .f32 = 32 ∨ (Rect.block (s := S8x128x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x128.size a ≤ S8x128x128x128.size a
  hwx0_1 : ∀ i : grid0.Coords, EltTy.bits .f32 = 32 ∨ (Rect.block (s := S8x128x128x128) S1x128x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x128x128.size a ≤ S8x9x128x128.size a
  hwx0_2 : ∀ i : grid0.Coords, EltTy.bits .f32 = 32 ∨ (Rect.block (s := S8x9x128x128) S1x9x128x128.size (cc0_transform_2 i) (hinb0_2 i)).WholeWords (EltTy.packing .f32)

variable [Facts₀]

abbrev win0_0 : Pipeline.Window sig grid0 :=
  Pipeline.Window.ofSpec (Memref.whole main_arg0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x9x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x128x128 : Shape := ⟨4, ![8, 128, 128, 128]⟩
abbrev S_ : Shape := ⟨0, ![]⟩
abbrev S8x128x130x130 : Shape := ⟨4, ![8, 128, 130, 130]⟩
abbrev S8x128x128 : Shape := ⟨3, ![8, 128, 128]⟩
abbrev S8x1x128x128 : Shape := ⟨4, ![8, 1, 128, 128]⟩
abbrev S8x9x128x128 : Shape := ⟨4, ![8, 9, 128, 128]⟩

abbrev nBuf : Space → Nat
  | .hbm => 51
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S_, .i32⟩
  | .hbm, ⟨3, _⟩ => ⟨S_, .f32⟩
  | .hbm, ⟨4, _⟩ => ⟨S8x128x130x130, .f32⟩
  | .hbm, ⟨5, _⟩ => ⟨S8x128x128x128, .f32⟩
  | .hbm, ⟨6, _⟩ => ⟨S8x128x128x128, .f32⟩
  | .hbm, ⟨7, _⟩ => ⟨S_, .f32⟩
  | .hbm, ⟨8, _⟩ => ⟨S8x128x128, .f32⟩
  | .hbm, ⟨9, _⟩ => ⟨S8x128x128x128, .f32⟩
  | .hbm, ⟨10, _⟩ => ⟨S8x128x128x128, .f32⟩
  | .hbm, ⟨11, _⟩ => ⟨S_, .f32⟩
  | .hbm, ⟨12, _⟩ => ⟨S8x128x128, .f32⟩
  | .hbm, ⟨13, _⟩ => ⟨S8x128x128x128, .f32⟩
  | .hbm, ⟨14, _⟩ => ⟨S8x128x128x128, .f32⟩
  | .hbm, ⟨15, _⟩ => ⟨S_, .f32⟩
  | .hbm, ⟨16, _⟩ => ⟨S8x128x128, .f32⟩
  | .hbm, ⟨17, _⟩ => ⟨S8x128x128x128, .f32⟩
  | .hbm, ⟨18, _⟩ => ⟨S8x128x128x128, .f32⟩
  | .hbm, ⟨19, _⟩ => ⟨S_, .f32⟩
  | .hbm, ⟨20, _⟩ => ⟨S8x128x128, .f32⟩
  | .hbm, ⟨21, _⟩ => ⟨S8x128x128x128, .f32⟩
  | .hbm, ⟨22, _⟩ => ⟨S8x128x128x128, .f32⟩
  | .hbm, ⟨23, _⟩ => ⟨S_, .f32⟩
  | .hbm, ⟨24, _⟩ => ⟨S8x128x128, .f32⟩
  | .hbm, ⟨25, _⟩ => ⟨S8x128x128x128, .f32⟩
  | .hbm, ⟨26, _⟩ => ⟨S8x128x128x128, .f32⟩
  | .hbm, ⟨27, _⟩ => ⟨S_, .f32⟩
  | .hbm, ⟨28, _⟩ => ⟨S8x128x128, .f32⟩
  | .hbm, ⟨29, _⟩ => ⟨S8x128x128x128, .f32⟩
  | .hbm, ⟨30, _⟩ => ⟨S8x128x128x128, .f32⟩
  | .hbm, ⟨31, _⟩ => ⟨S_, .f32⟩
  | .hbm, ⟨32, _⟩ => ⟨S8x128x128, .f32⟩
  | .hbm, ⟨33, _⟩ => ⟨S8x128x128x128, .f32⟩
  | .hbm, ⟨34, _⟩ => ⟨S8x128x128x128, .f32⟩
  | .hbm, ⟨35, _⟩ => ⟨S_, .f32⟩
  | .hbm, ⟨36, _⟩ => ⟨S8x128x128, .f32⟩
  | .hbm, ⟨37, _⟩ => ⟨S8x128x128x128, .f32⟩
  | .hbm, ⟨38, _⟩ => ⟨S8x128x128x128, .f32⟩
  | .hbm, ⟨39, _⟩ => ⟨S_, .f32⟩
  | .hbm, ⟨40, _⟩ => ⟨S8x128x128, .f32⟩
  | .hbm, ⟨41, _⟩ => ⟨S8x1x128x128, .f32⟩
  | .hbm, ⟨42, _⟩ => ⟨S8x1x128x128, .f32⟩
  | .hbm, ⟨43, _⟩ => ⟨S8x1x128x128, .f32⟩
  | .hbm, ⟨44, _⟩ => ⟨S8x1x128x128, .f32⟩
  | .hbm, ⟨45, _⟩ => ⟨S8x1x128x128, .f32⟩
  | .hbm, ⟨46, _⟩ => ⟨S8x1x128x128, .f32⟩
  | .hbm, ⟨47, _⟩ => ⟨S8x1x128x128, .f32⟩
  | .hbm, ⟨48, _⟩ => ⟨S8x1x128x128, .f32⟩
  | .hbm, ⟨49, _⟩ => ⟨S8x1x128x128, .f32⟩
  | .hbm, ⟨50, _⟩ => ⟨S8x9x128x128, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  pads_S8x128x128x128_S8x128x130x130_000_000_110_110 : S8x128x128x128.Pads (![0, 0, 1, 1] : Fin 4 → Nat) ![0, 0, 1, 1] ![0, 0, 0, 0] S8x128x130x130
  h_S_ : 0 < S_.numel
  slices_S8x128x130x130_S8x128x128x128_0_0_0_0 : S8x128x130x130.Slices ![0, 0, 0, 0] S8x128x128x128
  reducesTo_S8x128x128x128_S8x128x128_d1 : S8x128x128x128.ReducesTo [1] S8x128x128
  slices_S8x128x130x130_S8x128x128x128_0_0_0_1 : S8x128x130x130.Slices ![0, 0, 0, 1] S8x128x128x128
  slices_S8x128x130x130_S8x128x128x128_0_0_0_2 : S8x128x130x130.Slices ![0, 0, 0, 2] S8x128x128x128
  slices_S8x128x130x130_S8x128x128x128_0_0_1_0 : S8x128x130x130.Slices ![0, 0, 1, 0] S8x128x128x128
  slices_S8x128x130x130_S8x128x128x128_0_0_1_1 : S8x128x130x130.Slices ![0, 0, 1, 1] S8x128x128x128
  slices_S8x128x130x130_S8x128x128x128_0_0_1_2 : S8x128x130x130.Slices ![0, 0, 1, 2] S8x128x128x128
  slices_S8x128x130x130_S8x128x128x128_0_0_2_0 : S8x128x130x130.Slices ![0, 0, 2, 0] S8x128x128x128
  slices_S8x128x130x130_S8x128x128x128_0_0_2_1 : S8x128x130x130.Slices ![0, 0, 2, 1] S8x128x128x128
  slices_S8x128x130x130_S8x128x128x128_0_0_2_2 : S8x128x130x130.Slices ![0, 0, 2, 2] S8x128x128x128
  bcast_S8x128x128_S8x1x128x128_0_2_3 : S8x128x128.BroadcastsInDim S8x1x128x128 (![0, 2, 3] : Fin 3 → Fin S8x1x128x128.rank)
  concatenates_S8x1x128x128_S8x1x128x128_S8x1x128x128_S8x1x128x128_S8x1x128x128_S8x1x128x128_S8x1x128x128_S8x1x128x128_S8x1x128x128_S8x9x128x128_d1 : Shape.Concatenates [S8x1x128x128, S8x1x128x128, S8x1x128x128, S8x1x128x128, S8x1x128x128, S8x1x128x128, S8x1x128x128, S8x1x128x128, S8x1x128x128] S8x9x128x128 1

variable [Facts₀]

class Facts : Prop extends Facts₀ where

variable [Facts]
-- ==== Proof.Correlation.lean ====
/-
  The windowed channel correlation, as a function of the two argument arrays.

  For Q, K : [8, 128, 128, 128] (batch, channel, row, column) the result is the array [8, 9, 128, 128] with

      out[b, n, h, w] = ∑ c, Q[b, c, h, w] · K̃[b, c, h + n / 3, w + n % 3],

  where K̃[b, c] is the 130 × 130 plane that holds K[b, c] in its middle and zeros on its border: the nine values of n
  are the nine positions (n / 3, n % 3) of a 3 × 3 window, row by row, and the zeros are what a window reads where it
  hangs over the edge of the plane. The sum is over the 128 channels, on the extended reals; no factor is ever moved
  across it, so nothing here asks an entry to be finite.

  An entry depends on Q only through the channel vector at its own (b, h, w) and on K only through the 128 planes of
  batch b: `entry` is stated over those two, so that it can be read off a whole array and off one batch's block alike.
-/
import Idealize.ShloMosaic.PureOps.Ideal
import Idealize.ShloMosaic.Lib.ValueIdx

noncomputable section

namespace Cert.Correlation

open Idealize.ShloMosaic Idealize.ShloMosaic.ValueIdx

/-- Entry (r, s) of a 128 × 128 plane `f` set in a border of zeros one entry wide: rows and columns 1 … 128 of the
    130 × 130 plane hold `f`, row and column 0 and 129 hold zero. -/
def framed (f : Fin 128 → Fin 128 → EReal) (r s : Nat) : EReal :=
  if h : (1 ≤ r ∧ r ≤ 128) ∧ (1 ≤ s ∧ s ≤ 128) then f ⟨r - 1, by omega⟩ ⟨s - 1, by omega⟩ else 0

/-- Inside the border the framed plane is the plane, moved by one. -/
theorem framed_inside (f : Fin 128 → Fin 128 → EReal) (r s : Nat) (p q : Fin 128) (hr : r = p.val + 1) (hs : s = q.val + 1) :
    framed f r s = f p q := by
  have hp := p.isLt
  have hq := q.isLt
  unfold framed
  rw [dif_pos ⟨⟨by omega, by omega⟩, ⟨by omega, by omega⟩⟩]
  congr 1 <;> exact Fin.ext (by show _ - 1 = _; omega)

/-- On the border it is zero. -/
theorem framed_border (f : Fin 128 → Fin 128 → EReal) (r s : Nat) (h : ¬((1 ≤ r ∧ r ≤ 128) ∧ (1 ≤ s ∧ s ≤ 128))) :
    framed f r s = 0 := by
  unfold framed
  rw [dif_neg h]

/-- One entry of the result, from the channel vector `q` (Q at the entry's batch, row and column) and the planes `k`
    (K at the entry's batch): window position `n` reads plane `c` at row `h + n / 3`, column `w + n % 3` of its framing. -/
def entry (q : Fin 128 → EReal) (k : Fin 128 → Fin 128 → Fin 128 → EReal) (n : Fin 9) (h w : Fin 128) : EReal :=
  ∑ c : Fin 128, q c * framed (k c) (h.val + n.val / 3) (w.val + n.val % 3)

/-- An entry whose window position is the `nv`-th, with row offset `oi = nv / 3` and column offset `oj = nv % 3`. -/
theorem entry_at (q : Fin 128 → EReal) (k : Fin 128 → Fin 128 → Fin 128 → EReal) (n : Fin 9) (h w : Fin 128) (nv oi oj : Nat)
    (hn : n.val = nv) (hoi : nv / 3 = oi) (hoj : nv % 3 = oj) :
    entry q k n h w = ∑ c : Fin 128, q c * framed (k c) (h.val + oi) (w.val + oj) := by
  subst hn hoi hoj
  rfl

abbrev SArg : Shape := ⟨4, ![8, 128, 128, 128]⟩
abbrev SOut : Shape := ⟨4, ![8, 9, 128, 128]⟩

/-- The result array: every entry from its own batch, row and column of Q and its own batch of K. -/
def corr (Q K : FVec Ideal SArg .f32) : FVec Ideal SOut .f32 := fun i =>
  entry (fun c => Q (ix4 (i 0) c (i 2) (i 3))) (fun c r s => K (ix4 (i 0) c r s)) (i 1) (i 2) (i 3)

/-- The result at explicit coordinates. -/
theorem corr_apply (Q K : FVec Ideal SArg .f32) (b : Fin 8) (n : Fin 9) (h w : Fin 128) :
    corr Q K (ix4 b n h w) = entry (fun c => Q (ix4 b c h w)) (fun c r s => K (ix4 b c r s)) n h w := rfl

end Cert.Correlation

end
-- ==== Proof.KernelBlock.lean ====
/-
  What one grid point of the kernel leaves in its output block is the windowed channel correlation of its two input
  blocks.

  A grid point holds one batch: blocks X0 = Q[b] and X1 = K[b], each [1, 128, 128, 128]. The body sets X1's planes in a
  border of zeros — one zero row before and after along axis 1 of [128, 128, 128], then one zero column before and
  after along axis 2 —, takes the nine [128, 128, 128] slices of the [128, 130, 130] result at offsets (0, i, j),
  multiplies each by X0, sums over the channel axis, and stacks the nine [128, 128] sums. The generated value leg
  already reads the stack: block entry (0, n, h, w) is sum n at (h, w). Here each sum is read at (h, w):
    · a lane sum over the channel axis is ∑ c of the product at (c, h, w);
    · the slice at offsets (0, i, j) reads the bordered planes at (c, h + i, w + j);
    · the bordered planes at (c, r, s) are X1[0, c, r − 1, s − 1] for 1 ≤ r, s ≤ 128 and zero on the border.
-/
import proofs.«100523_j89773406421554_1_alg».proof.Proof.Gen.KernelIdeal.Value
import proofs.«100523_j89773406421554_1_alg».proof.Proof.Correlation
import Idealize.ShloMosaic.Lib.Pipeline.Value
import Idealize.ShloMosaic.Lib.ValueIdx
import Idealize.ShloMosaic.PureOps.Ideal.Laws

noncomputable section

namespace Cert.KernelIdeal.Corr

open Cert.KernelIdeal Cert.KernelIdeal.Gen Cert.KernelIdeal.Value Cert.Correlation
open Idealize.ShloMosaic Idealize.ShloMosaic.ValueIdx

/-! ## A stack of planes between two zero rows, then between two zero columns -/

/-- Off axis 1, an index of a piece and the index of the row-bordered stack it sits in share their coordinates. -/
theorem off_rows {n1 : Nat} (c : Fin 128) (p : Fin n1) (r : Fin 130) (w : Fin 128)
    (hr : (⟨3, ![128, n1, 128]⟩ : Shape).rank = S128x130x128.rank) :
    ∀ a : Fin (⟨3, ![128, n1, 128]⟩ : Shape).rank, a.cast hr ≠ (1 : Fin 3) →
      ((ix3 c p w : (⟨3, ![128, n1, 128]⟩ : Shape).Idx) a).val = ((ix3 c r w : S128x130x128.Idx) (a.cast hr)).val := fun a ha =>
  match a, ha with
  | ⟨0, _⟩, _ => rfl
  | ⟨1, _⟩, ha => absurd rfl ha
  | ⟨2, _⟩, _ => rfl

/-- Off axis 2, likewise for the column-bordered stack. -/
theorem off_cols {n2 : Nat} (c : Fin 128) (r : Fin 130) (q : Fin n2) (s : Fin 130)
    (hr : (⟨3, ![128, 130, n2]⟩ : Shape).rank = S128x130x130.rank) :
    ∀ a : Fin (⟨3, ![128, 130, n2]⟩ : Shape).rank, a.cast hr ≠ (2 : Fin 3) →
      ((ix3 c r q : (⟨3, ![128, 130, n2]⟩ : Shape).Idx) a).val = ((ix3 c r s : S128x130x130.Idx) (a.cast hr)).val := fun a ha =>
  match a, ha with
  | ⟨0, _⟩, _ => rfl
  | ⟨1, _⟩, _ => rfl
  | ⟨2, _⟩, ha => absurd rfl ha

/-- Rows 1 … 128 of the row-bordered stack are the stack's rows 0 … 127. -/
theorem rows_inside (z : EReal) (v : FVec Ideal S128x128x128 .f32)
    (hc : Shape.Concatenates [S128x1x128, S128x128x128, S128x1x128] S128x130x128 1)
    (c : Fin 128) (r : Fin 130) (w : Fin 128) (hr : 1 ≤ r.val ∧ r.val ≤ 128) :
    concatenate S128x130x128 1 [⟨S128x1x128, broadcast S128x1x128 z⟩, ⟨S128x128x128, v⟩, ⟨S128x1x128, broadcast S128x1x128 z⟩] hc (ix3 c r w)
      = v (ix3 c ⟨r.val - 1, by omega⟩ w) :=
  concatenate_apply_piece (t := S128x130x128) (1 : Fin 3) [⟨S128x1x128, broadcast S128x1x128 z⟩, ⟨S128x128x128, v⟩, ⟨S128x1x128, broadcast S128x1x128 z⟩] hc (ix3 c r w) 1 (by show (1 : Nat) < 3; decide) S128x128x128 v rfl rfl 1 rfl
    (ix3 c ⟨r.val - 1, by omega⟩ w) (off_rows (n1 := 128) c ⟨r.val - 1, by omega⟩ r w rfl) (by show 1 + (r.val - 1) = r.val; omega)

/-- Rows 0 and 129 are the border value. -/
theorem rows_border (z : EReal) (v : FVec Ideal S128x128x128 .f32)
    (hc : Shape.Concatenates [S128x1x128, S128x128x128, S128x1x128] S128x130x128 1)
    (c : Fin 128) (r : Fin 130) (w : Fin 128) (hr : ¬(1 ≤ r.val ∧ r.val ≤ 128)) :
    concatenate S128x130x128 1 [⟨S128x1x128, broadcast S128x1x128 z⟩, ⟨S128x128x128, v⟩, ⟨S128x1x128, broadcast S128x1x128 z⟩] hc (ix3 c r w)
      = z := by
  have hlt := r.isLt
  by_cases h0 : r.val = 0
  · exact concatenate_apply_piece (t := S128x130x128) (1 : Fin 3) [⟨S128x1x128, broadcast S128x1x128 z⟩, ⟨S128x128x128, v⟩, ⟨S128x1x128, broadcast S128x1x128 z⟩] hc (ix3 c r w) 0 (by show (0 : Nat) < 3; decide) S128x1x128 _ rfl rfl 0 rfl
      (ix3 c 0 w) (off_rows (n1 := 1) c 0 r w rfl) (by show 0 + 0 = r.val; omega)
  · exact concatenate_apply_piece (t := S128x130x128) (1 : Fin 3) [⟨S128x1x128, broadcast S128x1x128 z⟩, ⟨S128x128x128, v⟩, ⟨S128x1x128, broadcast S128x1x128 z⟩] hc (ix3 c r w) 2 (by show (2 : Nat) < 3; decide) S128x1x128 _ rfl rfl 129 rfl
      (ix3 c 0 w) (off_rows (n1 := 1) c 0 r w rfl) (by show 129 + 0 = r.val; omega)

/-- Columns 1 … 128 of the column-bordered stack are the stack's columns 0 … 127. -/
theorem cols_inside (z : EReal) (v : FVec Ideal S128x130x128 .f32)
    (hc : Shape.Concatenates [S128x130x1, S128x130x128, S128x130x1] S128x130x130 2)
    (c : Fin 128) (r : Fin 130) (s : Fin 130) (hs : 1 ≤ s.val ∧ s.val ≤ 128) :
    concatenate S128x130x130 2 [⟨S128x130x1, broadcast S128x130x1 z⟩, ⟨S128x130x128, v⟩, ⟨S128x130x1, broadcast S128x130x1 z⟩] hc (ix3 c r s)
      = v (ix3 c r ⟨s.val - 1, by omega⟩) :=
  concatenate_apply_piece (t := S128x130x130) (2 : Fin 3) [⟨S128x130x1, broadcast S128x130x1 z⟩, ⟨S128x130x128, v⟩, ⟨S128x130x1, broadcast S128x130x1 z⟩] hc (ix3 c r s) 1 (by show (1 : Nat) < 3; decide) S128x130x128 v rfl rfl 1 rfl
    (ix3 c r ⟨s.val - 1, by omega⟩) (off_cols (n2 := 128) c r ⟨s.val - 1, by omega⟩ s rfl) (by show 1 + (s.val - 1) = s.val; omega)

/-- Columns 0 and 129 are the border value. -/
theorem cols_border (z : EReal) (v : FVec Ideal S128x130x128 .f32)
    (hc : Shape.Concatenates [S128x130x1, S128x130x128, S128x130x1] S128x130x130 2)
    (c : Fin 128) (r : Fin 130) (s : Fin 130) (hs : ¬(1 ≤ s.val ∧ s.val ≤ 128)) :
    concatenate S128x130x130 2 [⟨S128x130x1, broadcast S128x130x1 z⟩, ⟨S128x130x128, v⟩, ⟨S128x130x1, broadcast S128x130x1 z⟩] hc (ix3 c r s)
      = z := by
  have hlt := s.isLt
  by_cases h0 : s.val = 0
  · exact concatenate_apply_piece (t := S128x130x130) (2 : Fin 3) [⟨S128x130x1, broadcast S128x130x1 z⟩, ⟨S128x130x128, v⟩, ⟨S128x130x1, broadcast S128x130x1 z⟩] hc (ix3 c r s) 0 (by show (0 : Nat) < 3; decide) S128x130x1 _ rfl rfl 0 rfl
      (ix3 c r 0) (off_cols (n2 := 1) c r 0 s rfl) (by show 0 + 0 = s.val; omega)
  · exact concatenate_apply_piece (t := S128x130x130) (2 : Fin 3) [⟨S128x130x1, broadcast S128x130x1 z⟩, ⟨S128x130x128, v⟩, ⟨S128x130x1, broadcast S128x130x1 z⟩] hc (ix3 c r s) 2 (by show (2 : Nat) < 3; decide) S128x130x1 _ rfl rfl 129 rfl
      (ix3 c r 0) (off_cols (n2 := 1) c r 0 s rfl) (by show 129 + 0 = s.val; omega)

/-! ## The bordered block -/

/-- The K block with its leading unit axis dropped, at (c, p, q), is the block at (0, c, p, q). -/
theorem planes_apply (X1 : Vec Ideal S1x128x128x128 .f32) (hc : S1x128x128x128.ShapeCasts S128x128x128) (c p q : Fin 128) :
    shapeCast S128x128x128 X1 hc (ix3 c p q) = X1 (ix4 0 c p q) :=
  shapeCast_apply X1 hc (ix3 c p q) (ix4 0 c p q) (by
    rw [Shape.rowMajor_val_four, Shape.rowMajor_val_three]
    show ((0 * 128 + c.val) * 128 + p.val) * 128 + q.val = (c.val * 128 + p.val) * 128 + q.val
    omega)

/-- THE BORDERED PLANES: at (c, r, s) the body's bordered K block is entry (r, s) of plane c framed by zeros. -/
theorem bordered_apply (X1 : Vec Ideal S1x128x128x128 .f32) (c : Fin 128) (r s : Fin 130) :
    k0_pay3 X1 (ix3 c r s) = framed (fun p q => X1 (ix4 0 c p q)) r.val s.val := by
  have hz : (Scalar.ofBits .f32 0x00000000#32 : Ideal .f32) = 0 := Ideal.ofBits_zero_f32
  unfold k0_pay3
  by_cases hs : 1 ≤ s.val ∧ s.val ≤ 128
  · by_cases hr : 1 ≤ r.val ∧ r.val ≤ 128
    · rw [framed_inside _ r.val s.val ⟨r.val - 1, by omega⟩ ⟨s.val - 1, by omega⟩ (by show r.val = r.val - 1 + 1; omega)
        (by show s.val = s.val - 1 + 1; omega)]
      exact (cols_inside _ _ _ c r s hs).trans ((rows_inside _ _ _ c r ⟨s.val - 1, by omega⟩ hr).trans (planes_apply X1 _ c _ _))
    · rw [framed_border _ _ _ (fun h => hr h.1)]
      exact (cols_inside _ _ _ c r s hs).trans ((rows_border _ _ _ c r ⟨s.val - 1, by omega⟩ hr).trans hz)
  · rw [framed_border _ _ _ (fun h => hs h.2)]
    exact (cols_border _ _ _ c r s hs).trans hz

/-! ## One channel sum, and the block -/

/-- The sum over the channels of X0 times the slice of the bordered planes at offsets `o = (0, oi, oj)`, read at
    (h, w) through the cast to [1, 128, 128]: the entry of the correlation whose window position has that offset. -/
theorem channel_sum (X0 X1 : Vec Ideal S1x128x128x128 .f32) (o : Fin 3 → Nat) (oi oj : Nat)
    (ho0 : o 0 = 0) (ho1 : o 1 = oi) (ho2 : o 2 = oj) (hoi : oi ≤ 2) (hoj : oj ≤ 2)
    (hc1 : S1x128x128x128.ShapeCasts S128x128x128) (hs : S128x130x130.Slices o S128x128x128)
    (hr : S128x128x128.Reduces [0] S128x128) (hφ : FKind.Formats .f32)
    (hacc : (0x00000000#32 : BitVec 32) = FKind.add.neutral .f32 hφ) (hc2 : S128x128.ShapeCasts S1x128x128)
    (h w : Fin 128) :
    shapeCast S1x128x128 (multiReduction .add [0] S128x128
        (mulf (shapeCast S128x128x128 X0 hc1) (extractStridedSlice S128x128x128 o (k0_pay3 X1) hs)) 0x00000000#32 hr hφ hacc) hc2 (ix3 0 h w)
      = ∑ c : Fin 128, X0 (ix4 0 c h w) * framed (fun p q => X1 (ix4 0 c p q)) (h.val + oi) (w.val + oj) := by
  have hh := h.isLt
  have hw := w.isLt
  refine (shapeCast_apply _ hc2 (ix3 0 h w) (ix2 h w) (by
    rw [Shape.rowMajor_val_two, Shape.rowMajor_val_three]
    show h.val * 128 + w.val = (0 * 128 + h.val) * 128 + w.val
    omega)).trans ?_
  refine (Ideal.multiReduction_add_single _ 0x00000000#32 hr hφ hacc (ix2 h w)).trans ?_
  refine Finset.sum_congr rfl fun (c : Fin 128) _ => ?_
  have e : hr.lift (ix2 h w) c = ix3 c h w :=
    funext fun a => Fin.ext (by match a with | ⟨0, _⟩ => rfl | ⟨1, _⟩ => rfl | ⟨2, _⟩ => rfl)
  rw [e]
  have e0 : shapeCast S128x128x128 X0 hc1 (ix3 c h w) = X0 (ix4 0 c h w) := planes_apply X0 hc1 c h w
  have e1 : extractStridedSlice S128x128x128 o (k0_pay3 X1) hs (ix3 c h w)
      = framed (fun p q => X1 (ix4 0 c p q)) (h.val + oi) (w.val + oj) :=
    (extractStridedSlice_apply o _ hs (ix3 c h w) (ix3 c ⟨h.val + oi, by omega⟩ ⟨w.val + oj, by omega⟩) (fun a =>
      match a with
      | ⟨0, _⟩ => by show c.val = o 0 + c.val; omega
      | ⟨1, _⟩ => by show h.val + oi = o 1 + h.val; omega
      | ⟨2, _⟩ => by show w.val + oj = o 2 + w.val; omega)).trans (bordered_apply X1 c _ _)
  show shapeCast S128x128x128 X0 hc1 (ix3 c h w) * extractStridedSlice S128x128x128 o (k0_pay3 X1) hs (ix3 c h w) = _
  rw [e0, e1]

/-- THE BLOCK: what the body leaves at (0, n, h, w) of its output block is the correlation's entry for window position
    `n`, from the channel vector of X0 at (h, w) and the planes of X1. The nine sums sit in the stack in the order
    (0,0), (0,1), (0,2), (1,0), …, (2,2) of their offsets. -/
theorem block_entry (X0 X1 : Vec Ideal S1x128x128x128 .f32) (n : Fin 9) (h w : Fin 128) :
    E2 X0 X1 (ix4 0 n h w) = entry (fun c => X0 (ix4 0 c h w)) (fun c r s => X1 (ix4 0 c r s)) n h w := by
  show Cat2_0 X0 X1 (csel2_0 (ix4 0 n h w)) (ix2_0 (ix4 0 n h w)) = _
  rw [show ix2_0 (ix4 (0 : Fin 1) n h w) = ix3 0 h w from
    funext fun a => Fin.ext (by match a with | ⟨0, _⟩ => rfl | ⟨1, _⟩ => rfl | ⟨2, _⟩ => rfl)]
  match n with
  | ⟨0, hn⟩ => rw [entry_at _ _ ⟨0, hn⟩ h w 0 0 0 rfl (by decide) (by decide)]; exact channel_sum X0 X1 ![0, 0, 0] 0 0 rfl rfl rfl (by omega) (by omega) _ _ _ _ _ _ h w
  | ⟨1, hn⟩ => rw [entry_at _ _ ⟨1, hn⟩ h w 1 0 1 rfl (by decide) (by decide)]; exact channel_sum X0 X1 ![0, 0, 1] 0 1 rfl rfl rfl (by omega) (by omega) _ _ _ _ _ _ h w
  | ⟨2, hn⟩ => rw [entry_at _ _ ⟨2, hn⟩ h w 2 0 2 rfl (by decide) (by decide)]; exact channel_sum X0 X1 ![0, 0, 2] 0 2 rfl rfl rfl (by omega) (by omega) _ _ _ _ _ _ h w
  | ⟨3, hn⟩ => rw [entry_at _ _ ⟨3, hn⟩ h w 3 1 0 rfl (by decide) (by decide)]; exact channel_sum X0 X1 ![0, 1, 0] 1 0 rfl rfl rfl (by omega) (by omega) _ _ _ _ _ _ h w
  | ⟨4, hn⟩ => rw [entry_at _ _ ⟨4, hn⟩ h w 4 1 1 rfl (by decide) (by decide)]; exact channel_sum X0 X1 ![0, 1, 1] 1 1 rfl rfl rfl (by omega) (by omega) _ _ _ _ _ _ h w
  | ⟨5, hn⟩ => rw [entry_at _ _ ⟨5, hn⟩ h w 5 1 2 rfl (by decide) (by decide)]; exact channel_sum X0 X1 ![0, 1, 2] 1 2 rfl rfl rfl (by omega) (by omega) _ _ _ _ _ _ h w
  | ⟨6, hn⟩ => rw [entry_at _ _ ⟨6, hn⟩ h w 6 2 0 rfl (by decide) (by decide)]; exact channel_sum X0 X1 ![0, 2, 0] 2 0 rfl rfl rfl (by omega) (by omega) _ _ _ _ _ _ h w
  | ⟨7, hn⟩ => rw [entry_at _ _ ⟨7, hn⟩ h w 7 2 1 rfl (by decide) (by decide)]; exact channel_sum X0 X1 ![0, 2, 1] 2 1 rfl rfl rfl (by omega) (by omega) _ _ _ _ _ _ h w
  | ⟨8, hn⟩ => rw [entry_at _ _ ⟨8, hn⟩ h w 8 2 2 rfl (by decide) (by decide)]; exact channel_sum X0 X1 ![0, 2, 2] 2 2 rfl rfl rfl (by omega) (by omega) _ _ _ _ _ _ h w

end Cert.KernelIdeal.Corr

end
-- ==== Proof.KernelArray.lean ====
/-
  The kernel's result array is the windowed channel correlation of its two argument arrays.

  The grid has one point per batch. Point t stages block t of Q and of K — the [1, 128, 128, 128] blocks at block index
  (t, 0, 0, 0), so block entry (0, c, p, q) is the array's entry (t, c, p, q) — and writes block t of the output, the
  [1, 9, 128, 128] block at (t, 0, 0, 0). An entry of the correlation depends on Q and K only through their batch, so
  block t of the correlation of the arrays is the correlation of the blocks at t, which is what the body leaves
  (`block_entry`). The eight output blocks are the eight batches: every index (b, n, h, w) lies in the block of point b,
  so the output array ends holding the correlation everywhere.
-/
import proofs.«100523_j89773406421554_1_alg».proof.Proof.KernelBlock
import Idealize.ShloMosaic.Lib.Pipeline.Value

noncomputable section

namespace Cert.KernelIdeal.Corr

open Cert.KernelIdeal Cert.KernelIdeal.Gen Cert.KernelIdeal.Value Cert.Correlation
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The three index maps, decided over the eight points: point t's block index is (t, 0, 0, 0) in every window. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

theorem point_lt (t : Fin cfg0.N) : t.val < 8 := lt_of_lt_of_eq t.isLt (show cfg0.N = 8 from N_0)

/-- The correlation of the arrays, at an index of batch `tb`, from blocks that hold batch `tb` of each array: the
    block-level correlation at the same window position, row and column. -/
theorem corr_of_blocks (Q K : FVec Ideal S8x128x128x128 .f32) (X0 X1 : Vec Ideal S1x128x128x128 .f32) (tb : Fin 8)
    (h0 : ∀ ch p q : Fin 128, X0 (ix4 0 ch p q) = Q (ix4 tb ch p q))
    (h1 : ∀ ch p q : Fin 128, X1 (ix4 0 ch p q) = K (ix4 tb ch p q))
    (y : S1x9x128x128.Idx) (i : S8x9x128x128.Idx)
    (hi0 : (i 0).val = tb.val) (hi1 : (i 1).val = (y 1).val) (hi2 : (i 2).val = (y 2).val) (hi3 : (i 3).val = (y 3).val) :
    E2 X0 X1 y = corr Q K i := by
  obtain ⟨z, n, h, w, rfl⟩ : ∃ (z : Fin 1) (n : Fin 9) (h w : Fin 128), y = ix4 z n h w := ⟨y 0, y 1, y 2, y 3, eq_ix4 y⟩
  obtain rfl : z = 0 := Subsingleton.elim _ _
  obtain rfl : i = ix4 tb n h w := by
    rw [eq_ix4 i]
    congr 1 <;> exact Fin.ext (by assumption)
  rw [block_entry, corr_apply]
  simp only [h0, h1]

/-- Point t's block of Q at (0, c, p, q) is Q at (t, c, p, q). -/
theorem qblock_apply (c : Dev nD) (t : Fin cfg0.N) (ch p q : Fin 128) :
    (iblk m c 0 t : Vec Ideal S1x128x128x128 .f32) (ix4 0 ch p q)
      = (m ((c : Thread nD τ).loc main_arg0) : S8x128x128x128.Idx → EReal) (ix4 ⟨t.val, point_lt t⟩ ch p q) := by
  obtain ⟨e0, e1, e2, e3, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = t.val; rw [e0]; omega
  | ⟨1, _⟩ => show win0_0.index t (1 : Fin 4) * 128 + 1 * ch.val = ch.val; rw [e1]; omega
  | ⟨2, _⟩ => show win0_0.index t (2 : Fin 4) * 128 + 1 * p.val = p.val; rw [e2]; omega
  | ⟨3, _⟩ => show win0_0.index t (3 : Fin 4) * 128 + 1 * q.val = q.val; rw [e3]; omega

/-- Point t's block of K at (0, c, p, q) is K at (t, c, p, q). -/
theorem kblock_apply (c : Dev nD) (t : Fin cfg0.N) (ch p q : Fin 128) :
    (iblk m c 1 t : Vec Ideal S1x128x128x128 .f32) (ix4 0 ch p q)
      = (m ((c : Thread nD τ).loc main_arg1) : S8x128x128x128.Idx → EReal) (ix4 ⟨t.val, point_lt t⟩ ch p q) := by
  obtain ⟨-, -, -, -, e0, e1, e2, e3, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * 0 = t.val; rw [e0]; omega
  | ⟨1, _⟩ => show win0_1.index t (1 : Fin 4) * 128 + 1 * ch.val = ch.val; rw [e1]; omega
  | ⟨2, _⟩ => show win0_1.index t (2 : Fin 4) * 128 + 1 * p.val = p.val; rw [e2]; omega
  | ⟨3, _⟩ => show win0_1.index t (3 : Fin 4) * 128 + 1 * q.val = q.val; rw [e3]; omega

theorem zero_offsets : (![0, 0, 0, 0] : Fin 4 → Nat) = fun _ => 0 := funext fun a => by fin_cases a <;> rfl

/-- WHAT POINT t WRITES BACK is block t of the correlation of the argument arrays. -/
theorem flushed_eq (c : Dev nD) (t : Fin cfg0.N) :
    (dats m 0 c).flushed 2 t = ((cfg0.win 2).blk t).view.read (Elt Ideal)
      (corr (m ((c : Thread nD τ).loc main_arg0)) (m ((c : Thread nD τ).loc main_arg1))) := by
  obtain ⟨-, -, -, -, -, -, -, -, e0, e1, e2, e3⟩ := idx_facts t
  have hcanon : out0_2 (iblk m c 0 t) (iblk m c 1 t) = E2 (iblk m c 0 t) (iblk m c 1 t) := by
    unfold out0_2
    simp only [View.ld_unit_zero (S := S1x128x128x128) zero_offsets]
    exact funext fun y => canon2_eq _ _ y
  rw [flushed2, hcanon]
  funext y
  show E2 (iblk m c 0 t) (iblk m c 1 t) y
    = corr (m ((c : Thread nD τ).loc main_arg0)) (m ((c : Thread nD τ).loc main_arg1)) (((cfg0.win 2).blk t).view.emb y)
  refine corr_of_blocks _ _ (iblk m c 0 t) (iblk m c 1 t) ⟨t.val, point_lt t⟩ (qblock_apply m c t) (kblock_apply m c t) y _ ?_ ?_ ?_ ?_
  · show win0_2.index t (0 : Fin 4) * 1 + 1 * (y 0).val = t.val
    have hy : (y 0).val < 1 := (y 0).isLt
    rw [e0]; omega
  · show win0_2.index t (1 : Fin 4) * 9 + 1 * (y 1).val = (y 1).val
    rw [e1]; omega
  · show win0_2.index t (2 : Fin 4) * 128 + 1 * (y 2).val = (y 2).val
    rw [e2]; omega
  · show win0_2.index t (3 : Fin 4) * 128 + 1 * (y 3).val = (y 3).val
    rw [e3]; omega

/-- An index of the output array is in point t's block iff each coordinate is in the block's range on its axis. -/
theorem mem_blk (t : Fin cfg0.N) (i : S8x9x128x128.Idx) :
    i ∈ ((cfg0.win 2).blk t).view.set ↔ ∀ a : Fin 4, win0_2.index t a * S1x9x128x128.size a ≤ (i a).val
      ∧ (i a).val < win0_2.index t a * S1x9x128x128.size a + S1x9x128x128.size a := by
  show i ∈ ((View.whole main_v0).slice (win0_2.rect t)).set ↔ _
  rw [View.set_slice_whole, Rect.mem_set_unit]
  exact Iff.rfl

/-- Every index (b, n, h, w) of the output array is in the block of the point of its batch b. -/
theorem covered (i : S8x9x128x128.Idx) :
    ∃ t : Fin cfg0.N, (cfg0.win 2).flush t = true ∧ i ∈ ((cfg0.win 2).blk t).view.set := by
  have hb : (i 0).val < 8 := (i 0).isLt
  have hn : (i 1).val < 9 := (i 1).isLt
  have hh : (i 2).val < 128 := (i 2).isLt
  have hw : (i 3).val < 128 := (i 3).isLt
  let t : Fin cfg0.N := ⟨(i 0).val, by rw [show cfg0.N = 8 from N_0]; exact hb⟩
  obtain ⟨-, -, -, -, -, -, -, -, e0, e1, e2, e3⟩ := idx_facts t
  have et : t.val = (i 0).val := rfl
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; rw [e0]; omega
  | ⟨1, _⟩ => show win0_2.index t (1 : Fin 4) * 9 ≤ (i 1).val ∧ (i 1).val < win0_2.index t (1 : Fin 4) * 9 + 9; rw [e1]; omega
  | ⟨2, _⟩ => show win0_2.index t (2 : Fin 4) * 128 ≤ (i 2).val ∧ (i 2).val < win0_2.index t (2 : Fin 4) * 128 + 128; rw [e2]; omega
  | ⟨3, _⟩ => show win0_2.index t (3 : Fin 4) * 128 ≤ (i 3).val ∧ (i 3).val < win0_2.index t (3 : Fin 4) * 128 + 128; rw [e3]; omega

/-- THE OUTPUT ARRAY after the run is the correlation of the argument arrays. -/
theorem final (c : Dev nD) : (dats m 0 c).arrAt 2 cfg0.N
    = corr (m ((c : Thread nD τ).loc main_arg0)) (m ((c : Thread nD τ).loc main_arg1)) :=
  (dats m 0 c).arrAt_eq_of_cover 2 _ (fun t _ => flushed_eq m c t) covered

/-- The kernel's run, read: the result array at the correlation of the arguments, the arguments unchanged. -/
theorem run : θ_run defs (onTc (τ := τ) (main (F := Ideal))) ⟨m, fun _ => 0, ρ⟩ fun r => ∀ c : Dev nD,
      r.2.mem ((c : Thread nD τ).loc main_v0) = corr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Corr

end
-- ==== Proof.ReferenceValue.lean ====
/-
  The reference program's result is the windowed channel correlation `Cert.Correlation.corr` of its two arguments.

  The reference pads K by one zero row and column on each side of its last two axes, takes the nine unit-stride slices
  of the padded array at offsets (i, j), 0 ≤ i, j ≤ 2, multiplies each by Q, sums each product over the channel axis
  from the initial value zero, and stacks the nine sums along a new axis 1. Read at an index (b, n, h, w):
    · the stack reads its piece n at (b, 0, h, w), and that piece is sum n at (b, h, w);
    · sum n at (b, h, w) is 0 + ∑ c, product n at (b, c, h, w);
    · product n at (b, c, h, w) is Q[b, c, h, w] times the padded K at (b, c, h + i, w + j), with n = 3 i + j;
    · the padded K at (b, c, r, s) is K[b, c, r − 1, s − 1] for 1 ≤ r, s ≤ 128 and the padding value elsewhere, and the
      padding value is the integer zero converted to a float: the real number zero.
  So the entry is 0 + ∑ c, Q[b, c, h, w] · framed K[b, c] (h + i) (w + j), and 0 + x = x on every extended real.
-/
import proofs.«100523_j89773406421554_1_alg».proof.Proof.Gen.ReferenceIdeal.Read
import proofs.«100523_j89773406421554_1_alg».proof.Proof.Correlation
import Idealize.ShloMosaic.Lib.KernelVsHost
import Idealize.ShloMosaic.Lib.Pipeline.Value
import Idealize.ShloMosaic.Lib.ValueIdx
import Idealize.ShloMosaic.PureOps.Ideal.Laws

noncomputable section

namespace Cert.ReferenceIdeal.Corr

open Cert.ReferenceIdeal Cert.ReferenceIdeal.Gen Cert.ReferenceIdeal.Read Cert.Correlation
open Idealize.ShloMosaic Idealize.ShloMosaic.ValueIdx

/-- The padding value is zero: the integer constant 0 converted to a float. -/
theorem pad_value (i : S_.Idx) : val_main_call0_v0 (F := Ideal) i = 0 := by
  rw [val_main_call0_v0_apply, val_main_c_apply]
  exact sitofp_zero (φ := .f32)

/-- The padded K at (b, c, r, s) is entry (r, s) of the plane K[b, c] framed by zeros: inside the frame the pad reads
    K one row and one column back, on the frame it reads the padding value. -/
theorem padded_apply (x1 : FVec Ideal S8x128x128x128 .f32) (j : S8x128x130x130.Idx) (b : Fin 8) (c : Fin 128) (r s : Nat)
    (h0 : (j 0).val = b.val) (h1 : (j 1).val = c.val) (h2 : (j 2).val = r) (h3 : (j 3).val = s) :
    val_main_v0 (F := Ideal) x1 j = framed (fun p q => x1 (ix4 b c p q)) r s := by
  unfold val_main_v0
  by_cases hin : (1 ≤ r ∧ r ≤ 128) ∧ (1 ≤ s ∧ s ≤ 128)
  · obtain ⟨⟨hr1, hr2⟩, ⟨hs1, hs2⟩⟩ := hin
    rw [framed_inside _ r s ⟨r - 1, by omega⟩ ⟨s - 1, by omega⟩ (by show r = r - 1 + 1; omega) (by show s = s - 1 + 1; omega)]
    exact pad_apply_of_inside _ _ _ x1 _ _ _ j (ix4 b c ⟨r - 1, by omega⟩ ⟨s - 1, by omega⟩)
      (fun a => match a with
        | ⟨0, _⟩ => by show (j 0).val = 0 + b.val * (0 + 1); omega
        | ⟨1, _⟩ => by show (j 1).val = 0 + c.val * (0 + 1); omega
        | ⟨2, _⟩ => by show (j 2).val = 1 + (r - 1) * (0 + 1); omega
        | ⟨3, _⟩ => by show (j 3).val = 1 + (s - 1) * (0 + 1); omega)
  · rw [framed_border _ r s hin]
    refine Eq.trans ?_ (pad_value (Shape.Idx.first h_S_))
    by_cases hr : 1 ≤ r ∧ r ≤ 128
    · have hs : ¬(1 ≤ s ∧ s ≤ 128) := fun hs => hin ⟨hr, hs⟩
      exact pad_apply_of_not_inside _ _ _ x1 _ _ _ j ⟨3, by decide⟩
        (by show ¬(1 ≤ (j 3).val ∧ ((j 3).val - 1) % 1 = 0 ∧ ((j 3).val - 1) / 1 < 128); omega)
    · exact pad_apply_of_not_inside _ _ _ x1 _ _ _ j ⟨2, by decide⟩
        (by show ¬(1 ≤ (j 2).val ∧ ((j 2).val - 1) % 1 = 0 ∧ ((j 2).val - 1) / 1 < 128); omega)

/-- One channel sum of the reference, at (b, h, w): the initial value `z = 0` plus the sum over the channels of the
    product stage `M`, which multiplies Q by the slice stage `Sl`, which reads the padded K at the index moved by
    (oi, oj) on its last two axes (`sh`). It is the entry of the correlation whose window position has that offset. -/
theorem channel_sum (x0 x1 : FVec Ideal S8x128x128x128 .f32) (oi oj : Nat) (b : Fin 8) (h w : Fin 128) (z : EReal) (hz : z = 0)
    (M Sl : S8x128x128x128.Idx → EReal) (sh : S8x128x128x128.Idx → S8x128x130x130.Idx)
    (hM : ∀ l, M l = x0 l * Sl l) (hSl : ∀ l, Sl l = val_main_v0 (F := Ideal) x1 (sh l))
    (hsh : ∀ l, (sh l 0).val = (l 0).val ∧ (sh l 1).val = (l 1).val ∧ (sh l 2).val = (l 2).val + oi ∧ (sh l 3).val = (l 3).val + oj)
    (idx : Fin 128 → S8x128x128x128.Idx) (hidx : ∀ k, idx k = ix4 b k h w) :
    z + ∑ k : Fin 128, M (idx k)
      = ∑ c : Fin 128, x0 (ix4 b c h w) * framed (fun p q => x1 (ix4 b c p q)) (h.val + oi) (w.val + oj) := by
  rw [hz, zero_add]
  refine Finset.sum_congr rfl fun k _ => ?_
  rw [hidx k, hM, hSl]
  exact congrArg (x0 (ix4 b k h w) * ·)
    (padded_apply x1 (sh (ix4 b k h w)) b k _ _ (hsh _).1 (hsh _).2.1 (hsh _).2.2.1 (hsh _).2.2.2)

/-- Window position 0: rows moved by 0, columns by 0. -/
theorem plane0 (x0 x1 : FVec Ideal S8x128x128x128 .f32) (b : Fin 8) (h w : Fin 128) (hn : 0 < 9) :
    val_main_v28 (F := Ideal) x0 x1 (ix4 b 0 h w) = entry (fun c => x0 (ix4 b c h w)) (fun c r s => x1 (ix4 b c r s)) ⟨0, hn⟩ h w := by
  rw [val_main_v28_apply, val_main_v3_apply]
  rw [entry_at _ _ ⟨0, hn⟩ h w 0 0 0 rfl (by decide) (by decide)]
  exact channel_sum x0 x1 0 0 b h w _ ((val_main_cst_apply (F := Ideal) _).trans Ideal.ofBits_zero_f32)
    (val_main_v2 (F := Ideal) x0 x1) (val_main_v1 (F := Ideal) x1) idx_main_v1 (val_main_v2_apply (F := Ideal) x0 x1) (val_main_v1_apply (F := Ideal) x1)
    (fun l => ⟨rfl, rfl, rfl, rfl⟩) (idx_main_v3 (idx_main_v28 (ix4 b 0 h w)))
    (fun k => funext fun a => Fin.ext (by match a with | ⟨0, _⟩ => rfl | ⟨1, _⟩ => rfl | ⟨2, _⟩ => rfl | ⟨3, _⟩ => rfl))

/-- Window position 1: rows moved by 0, columns by 1. -/
theorem plane1 (x0 x1 : FVec Ideal S8x128x128x128 .f32) (b : Fin 8) (h w : Fin 128) (hn : 1 < 9) :
    val_main_v29 (F := Ideal) x0 x1 (ix4 b 0 h w) = entry (fun c => x0 (ix4 b c h w)) (fun c r s => x1 (ix4 b c r s)) ⟨1, hn⟩ h w := by
  rw [val_main_v29_apply, val_main_v6_apply]
  rw [entry_at _ _ ⟨1, hn⟩ h w 1 0 1 rfl (by decide) (by decide)]
  exact channel_sum x0 x1 0 1 b h w _ ((val_main_cst_0_apply (F := Ideal) _).trans Ideal.ofBits_zero_f32)
    (val_main_v5 (F := Ideal) x0 x1) (val_main_v4 (F := Ideal) x1) idx_main_v4 (val_main_v5_apply (F := Ideal) x0 x1) (val_main_v4_apply (F := Ideal) x1)
    (fun l => ⟨rfl, rfl, rfl, Nat.add_comm 1 _⟩) (idx_main_v6 (idx_main_v29 (ix4 b 0 h w)))
    (fun k => funext fun a => Fin.ext (by match a with | ⟨0, _⟩ => rfl | ⟨1, _⟩ => rfl | ⟨2, _⟩ => rfl | ⟨3, _⟩ => rfl))

/-- Window position 2: rows moved by 0, columns by 2. -/
theorem plane2 (x0 x1 : FVec Ideal S8x128x128x128 .f32) (b : Fin 8) (h w : Fin 128) (hn : 2 < 9) :
    val_main_v30 (F := Ideal) x0 x1 (ix4 b 0 h w) = entry (fun c => x0 (ix4 b c h w)) (fun c r s => x1 (ix4 b c r s)) ⟨2, hn⟩ h w := by
  rw [val_main_v30_apply, val_main_v9_apply]
  rw [entry_at _ _ ⟨2, hn⟩ h w 2 0 2 rfl (by decide) (by decide)]
  exact channel_sum x0 x1 0 2 b h w _ ((val_main_cst_1_apply (F := Ideal) _).trans Ideal.ofBits_zero_f32)
    (val_main_v8 (F := Ideal) x0 x1) (val_main_v7 (F := Ideal) x1) idx_main_v7 (val_main_v8_apply (F := Ideal) x0 x1) (val_main_v7_apply (F := Ideal) x1)
    (fun l => ⟨rfl, rfl, rfl, Nat.add_comm 2 _⟩) (idx_main_v9 (idx_main_v30 (ix4 b 0 h w)))
    (fun k => funext fun a => Fin.ext (by match a with | ⟨0, _⟩ => rfl | ⟨1, _⟩ => rfl | ⟨2, _⟩ => rfl | ⟨3, _⟩ => rfl))

/-- Window position 3: rows moved by 1, columns by 0. -/
theorem plane3 (x0 x1 : FVec Ideal S8x128x128x128 .f32) (b : Fin 8) (h w : Fin 128) (hn : 3 < 9) :
    val_main_v31 (F := Ideal) x0 x1 (ix4 b 0 h w) = entry (fun c => x0 (ix4 b c h w)) (fun c r s => x1 (ix4 b c r s)) ⟨3, hn⟩ h w := by
  rw [val_main_v31_apply, val_main_v12_apply]
  rw [entry_at _ _ ⟨3, hn⟩ h w 3 1 0 rfl (by decide) (by decide)]
  exact channel_sum x0 x1 1 0 b h w _ ((val_main_cst_2_apply (F := Ideal) _).trans Ideal.ofBits_zero_f32)
    (val_main_v11 (F := Ideal) x0 x1) (val_main_v10 (F := Ideal) x1) idx_main_v10 (val_main_v11_apply (F := Ideal) x0 x1) (val_main_v10_apply (F := Ideal) x1)
    (fun l => ⟨rfl, rfl, Nat.add_comm 1 _, rfl⟩) (idx_main_v12 (idx_main_v31 (ix4 b 0 h w)))
    (fun k => funext fun a => Fin.ext (by match a with | ⟨0, _⟩ => rfl | ⟨1, _⟩ => rfl | ⟨2, _⟩ => rfl | ⟨3, _⟩ => rfl))

/-- Window position 4: rows moved by 1, columns by 1. -/
theorem plane4 (x0 x1 : FVec Ideal S8x128x128x128 .f32) (b : Fin 8) (h w : Fin 128) (hn : 4 < 9) :
    val_main_v32 (F := Ideal) x0 x1 (ix4 b 0 h w) = entry (fun c => x0 (ix4 b c h w)) (fun c r s => x1 (ix4 b c r s)) ⟨4, hn⟩ h w := by
  rw [val_main_v32_apply, val_main_v15_apply]
  rw [entry_at _ _ ⟨4, hn⟩ h w 4 1 1 rfl (by decide) (by decide)]
  exact channel_sum x0 x1 1 1 b h w _ ((val_main_cst_3_apply (F := Ideal) _).trans Ideal.ofBits_zero_f32)
    (val_main_v14 (F := Ideal) x0 x1) (val_main_v13 (F := Ideal) x1) idx_main_v13 (val_main_v14_apply (F := Ideal) x0 x1) (val_main_v13_apply (F := Ideal) x1)
    (fun l => ⟨rfl, rfl, Nat.add_comm 1 _, Nat.add_comm 1 _⟩) (idx_main_v15 (idx_main_v32 (ix4 b 0 h w)))
    (fun k => funext fun a => Fin.ext (by match a with | ⟨0, _⟩ => rfl | ⟨1, _⟩ => rfl | ⟨2, _⟩ => rfl | ⟨3, _⟩ => rfl))

/-- Window position 5: rows moved by 1, columns by 2. -/
theorem plane5 (x0 x1 : FVec Ideal S8x128x128x128 .f32) (b : Fin 8) (h w : Fin 128) (hn : 5 < 9) :
    val_main_v33 (F := Ideal) x0 x1 (ix4 b 0 h w) = entry (fun c => x0 (ix4 b c h w)) (fun c r s => x1 (ix4 b c r s)) ⟨5, hn⟩ h w := by
  rw [val_main_v33_apply, val_main_v18_apply]
  rw [entry_at _ _ ⟨5, hn⟩ h w 5 1 2 rfl (by decide) (by decide)]
  exact channel_sum x0 x1 1 2 b h w _ ((val_main_cst_4_apply (F := Ideal) _).trans Ideal.ofBits_zero_f32)
    (val_main_v17 (F := Ideal) x0 x1) (val_main_v16 (F := Ideal) x1) idx_main_v16 (val_main_v17_apply (F := Ideal) x0 x1) (val_main_v16_apply (F := Ideal) x1)
    (fun l => ⟨rfl, rfl, Nat.add_comm 1 _, Nat.add_comm 2 _⟩) (idx_main_v18 (idx_main_v33 (ix4 b 0 h w)))
    (fun k => funext fun a => Fin.ext (by match a with | ⟨0, _⟩ => rfl | ⟨1, _⟩ => rfl | ⟨2, _⟩ => rfl | ⟨3, _⟩ => rfl))

/-- Window position 6: rows moved by 2, columns by 0. -/
theorem plane6 (x0 x1 : FVec Ideal S8x128x128x128 .f32) (b : Fin 8) (h w : Fin 128) (hn : 6 < 9) :
    val_main_v34 (F := Ideal) x0 x1 (ix4 b 0 h w) = entry (fun c => x0 (ix4 b c h w)) (fun c r s => x1 (ix4 b c r s)) ⟨6, hn⟩ h w := by
  rw [val_main_v34_apply, val_main_v21_apply]
  rw [entry_at _ _ ⟨6, hn⟩ h w 6 2 0 rfl (by decide) (by decide)]
  exact channel_sum x0 x1 2 0 b h w _ ((val_main_cst_5_apply (F := Ideal) _).trans Ideal.ofBits_zero_f32)
    (val_main_v20 (F := Ideal) x0 x1) (val_main_v19 (F := Ideal) x1) idx_main_v19 (val_main_v20_apply (F := Ideal) x0 x1) (val_main_v19_apply (F := Ideal) x1)
    (fun l => ⟨rfl, rfl, Nat.add_comm 2 _, rfl⟩) (idx_main_v21 (idx_main_v34 (ix4 b 0 h w)))
    (fun k => funext fun a => Fin.ext (by match a with | ⟨0, _⟩ => rfl | ⟨1, _⟩ => rfl | ⟨2, _⟩ => rfl | ⟨3, _⟩ => rfl))

/-- Window position 7: rows moved by 2, columns by 1. -/
theorem plane7 (x0 x1 : FVec Ideal S8x128x128x128 .f32) (b : Fin 8) (h w : Fin 128) (hn : 7 < 9) :
    val_main_v35 (F := Ideal) x0 x1 (ix4 b 0 h w) = entry (fun c => x0 (ix4 b c h w)) (fun c r s => x1 (ix4 b c r s)) ⟨7, hn⟩ h w := by
  rw [val_main_v35_apply, val_main_v24_apply]
  rw [entry_at _ _ ⟨7, hn⟩ h w 7 2 1 rfl (by decide) (by decide)]
  exact channel_sum x0 x1 2 1 b h w _ ((val_main_cst_6_apply (F := Ideal) _).trans Ideal.ofBits_zero_f32)
    (val_main_v23 (F := Ideal) x0 x1) (val_main_v22 (F := Ideal) x1) idx_main_v22 (val_main_v23_apply (F := Ideal) x0 x1) (val_main_v22_apply (F := Ideal) x1)
    (fun l => ⟨rfl, rfl, Nat.add_comm 2 _, Nat.add_comm 1 _⟩) (idx_main_v24 (idx_main_v35 (ix4 b 0 h w)))
    (fun k => funext fun a => Fin.ext (by match a with | ⟨0, _⟩ => rfl | ⟨1, _⟩ => rfl | ⟨2, _⟩ => rfl | ⟨3, _⟩ => rfl))

/-- Window position 8: rows moved by 2, columns by 2. -/
theorem plane8 (x0 x1 : FVec Ideal S8x128x128x128 .f32) (b : Fin 8) (h w : Fin 128) (hn : 8 < 9) :
    val_main_v36 (F := Ideal) x0 x1 (ix4 b 0 h w) = entry (fun c => x0 (ix4 b c h w)) (fun c r s => x1 (ix4 b c r s)) ⟨8, hn⟩ h w := by
  rw [val_main_v36_apply, val_main_v27_apply]
  rw [entry_at _ _ ⟨8, hn⟩ h w 8 2 2 rfl (by decide) (by decide)]
  exact channel_sum x0 x1 2 2 b h w _ ((val_main_cst_7_apply (F := Ideal) _).trans Ideal.ofBits_zero_f32)
    (val_main_v26 (F := Ideal) x0 x1) (val_main_v25 (F := Ideal) x1) idx_main_v25 (val_main_v26_apply (F := Ideal) x0 x1) (val_main_v25_apply (F := Ideal) x1)
    (fun l => ⟨rfl, rfl, Nat.add_comm 2 _, Nat.add_comm 2 _⟩) (idx_main_v27 (idx_main_v36 (ix4 b 0 h w)))
    (fun k => funext fun a => Fin.ext (by match a with | ⟨0, _⟩ => rfl | ⟨1, _⟩ => rfl | ⟨2, _⟩ => rfl | ⟨3, _⟩ => rfl))

/-- Off the stacking axis, a piece's index (b, 0, h, w) and the stack's (b, n, h, w) have the same coordinates. -/
theorem off_axis (b : Fin 8) (n : Fin 9) (h w : Fin 128) (hr : S8x1x128x128.rank = S8x9x128x128.rank) :
    ∀ a : Fin S8x1x128x128.rank, a.cast hr ≠ (1 : Fin 4) →
      ((ix4 b (0 : Fin 1) h w : S8x1x128x128.Idx) a).val = ((ix4 b n h w : S8x9x128x128.Idx) (a.cast hr)).val := fun a ha =>
  match a, ha with
  | ⟨0, _⟩, _ => rfl
  | ⟨1, _⟩, ha => absurd rfl ha
  | ⟨2, _⟩, _ => rfl
  | ⟨3, _⟩, _ => rfl

/-- Nine arrays [8, 1, 128, 128] stacked along axis 1, read at (b, n, h, w): member `n` at (b, 0, h, w). -/
theorem stack_apply (u : Fin 9 → FVec Ideal S8x1x128x128 .f32)
    (hc : Shape.Concatenates [S8x1x128x128, S8x1x128x128, S8x1x128x128, S8x1x128x128, S8x1x128x128, S8x1x128x128, S8x1x128x128, S8x1x128x128, S8x1x128x128] S8x9x128x128 1)
    (b : Fin 8) (n : Fin 9) (h w : Fin 128) :
    concatenate S8x9x128x128 1 [⟨S8x1x128x128, u 0⟩, ⟨S8x1x128x128, u 1⟩, ⟨S8x1x128x128, u 2⟩, ⟨S8x1x128x128, u 3⟩, ⟨S8x1x128x128, u 4⟩, ⟨S8x1x128x128, u 5⟩, ⟨S8x1x128x128, u 6⟩, ⟨S8x1x128x128, u 7⟩, ⟨S8x1x128x128, u 8⟩] hc (ix4 b n h w) = u n (ix4 b 0 h w) := by
  show concatenate S8x9x128x128 1 (List.ofFn fun k : Fin 9 => (⟨S8x1x128x128, u k⟩ : (s : Shape) × (s.Idx → EReal))) _ (ix4 b n h w) = _
  exact concatenate_ofFn_apply (t := S8x9x128x128) (s₁ := S8x1x128x128) (1 : Fin 4) u _ rfl 1 rfl (ix4 b n h w) n
    (by show n.val / 1 = n.val; omega) (ix4 b 0 h w) (by show 0 = n.val % 1; omega) (off_axis b n h w rfl)

/-- The nine channel sums, each with its unit axis 1 restored, in the order the reference stacks them. -/
def sums (x0 x1 : FVec Ideal S8x128x128x128 .f32) : Fin 9 → FVec Ideal S8x1x128x128 .f32 := fun n =>
  match n with
  | ⟨0, _⟩ => val_main_v28 (F := Ideal) x0 x1
  | ⟨1, _⟩ => val_main_v29 (F := Ideal) x0 x1
  | ⟨2, _⟩ => val_main_v30 (F := Ideal) x0 x1
  | ⟨3, _⟩ => val_main_v31 (F := Ideal) x0 x1
  | ⟨4, _⟩ => val_main_v32 (F := Ideal) x0 x1
  | ⟨5, _⟩ => val_main_v33 (F := Ideal) x0 x1
  | ⟨6, _⟩ => val_main_v34 (F := Ideal) x0 x1
  | ⟨7, _⟩ => val_main_v35 (F := Ideal) x0 x1
  | ⟨8, _⟩ => val_main_v36 (F := Ideal) x0 x1

/-- THE REFERENCE'S RESULT is the correlation: at (b, n, h, w) the stack reads its member n, the nine members being the
    nine window positions in the order (0,0), (0,1), (0,2), (1,0), …, (2,2). -/
theorem result_eq (x0 x1 : FVec Ideal S8x128x128x128 .f32) : val_main_v37 (F := Ideal) x0 x1 = corr x0 x1 := by
  funext i
  obtain ⟨b, n, h, w, rfl⟩ : ∃ (b : Fin 8) (n : Fin 9) (h w : Fin 128), i = ix4 b n h w := ⟨i 0, i 1, i 2, i 3, eq_ix4 i⟩
  rw [corr_apply]
  refine (stack_apply (sums x0 x1) _ b n h w).trans ?_
  match n with
  | ⟨0, hn⟩ => exact plane0 x0 x1 b h w hn
  | ⟨1, hn⟩ => exact plane1 x0 x1 b h w hn
  | ⟨2, hn⟩ => exact plane2 x0 x1 b h w hn
  | ⟨3, hn⟩ => exact plane3 x0 x1 b h w hn
  | ⟨4, hn⟩ => exact plane4 x0 x1 b h w hn
  | ⟨5, hn⟩ => exact plane5 x0 x1 b h w hn
  | ⟨6, hn⟩ => exact plane6 x0 x1 b h w hn
  | ⟨7, hn⟩ => exact plane7 x0 x1 b h w hn
  | ⟨8, hn⟩ => exact plane8 x0 x1 b h w hn

end Cert.ReferenceIdeal.Corr

end
-- ==== Proof.lean ====
/-
  Windowed channel correlation: the kernel against its reference, on the extended reals.

  Both programs take Q, K : [8, 128, 128, 128] and return the array [8, 9, 128, 128] with

      out[b, n, h, w] = ∑ c, Q[b, c, h, w] · K̃[b, c, h + n / 3, w + n % 3],

  K̃[b, c] being the plane K[b, c] inside a border of zeros one entry wide (`Cert.Correlation.corr`). The kernel walks
  the eight batches; at each it borders the K block with zeros by concatenation, multiplies Q's block by each of the
  nine unit-offset slices of the bordered block, sums each product over the channels and stores the stack of the nine
  sums (Proof/KernelBlock.lean: a block; Proof/KernelArray.lean: the eight blocks fill the array). The reference pads
  the whole K once, and slices, multiplies, sums over the channels from zero and stacks on whole arrays
  (Proof/ReferenceValue.lean). Read at an index the two are the same sum of the same 128 products, term for term — the
  reference's with the initial value 0 in front, and 0 + x = x on every extended real — so the equality uses no law
  that needs a finite entry, and the precondition is never opened.

  The three frames are the programs' runs with the results dropped; on the extended reals the kernel is read from its
  own text, no operation rewritten, so there is nothing to preserve.
-/
import proofs.«100523_j89773406421554_1_alg».proof.Defs
import proofs.«100523_j89773406421554_1_alg».proof.Proof.Gen.Kernel
import proofs.«100523_j89773406421554_1_alg».proof.Proof.Gen.Kernel.Skeleton
import proofs.«100523_j89773406421554_1_alg».proof.Proof.Gen.Kernel.Launch
import proofs.«100523_j89773406421554_1_alg».proof.Proof.Gen.Kernel.Points
import proofs.«100523_j89773406421554_1_alg».proof.Proof.Gen.Kernel.Frame
import proofs.«100523_j89773406421554_1_alg».proof.Proof.Gen.KernelIdeal
import proofs.«100523_j89773406421554_1_alg».proof.Proof.Gen.KernelIdeal.Skeleton
import proofs.«100523_j89773406421554_1_alg».proof.Proof.Gen.KernelIdeal.Launch
import proofs.«100523_j89773406421554_1_alg».proof.Proof.Gen.KernelIdeal.Points
import proofs.«100523_j89773406421554_1_alg».proof.Proof.Gen.KernelIdeal.Frame
import proofs.«100523_j89773406421554_1_alg».proof.Proof.Gen.ReferenceIdeal
import proofs.«100523_j89773406421554_1_alg».proof.Proof.Gen.Pre_finite_inputs
import proofs.«100523_j89773406421554_1_alg».proof.Proof.Gen.KernelIdeal.Value
import proofs.«100523_j89773406421554_1_alg».proof.Proof.Gen.ReferenceIdeal.Run
import proofs.«100523_j89773406421554_1_alg».proof.Proof.Gen.ReferenceIdeal.Read
import proofs.«100523_j89773406421554_1_alg».proof.Proof.Correlation
import proofs.«100523_j89773406421554_1_alg».proof.Proof.KernelBlock
import proofs.«100523_j89773406421554_1_alg».proof.Proof.KernelArray
import proofs.«100523_j89773406421554_1_alg».proof.Proof.ReferenceValue
import Idealize.ShloMosaic.Adequacy
import Idealize.ShloMosaic.Init

noncomputable section

namespace Cert.Proof

open Idealize.ShloMosaic Idealize.SL.Sem

/-- The kernel as printed runs, and leaves Q and K as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From arguments that agree, the kernel's result array and the reference's both end at the correlation of Q and K. -/
theorem algebraic : Cert.algebraic_KernelIdeal_ReferenceIdeal := by
  intro m ρ m' ρ' _ hagree
  refine ⟨_, Cert.KernelIdeal.Corr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.Corr.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
